-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576 : Shape := ⟨1, ![1048576]⟩
abbrev S1000000x64 : Shape := ⟨2, ![1000000, 64]⟩
abbrev S100000x64 : Shape := ⟨2, ![100000, 64]⟩
abbrev S1000000x1 : Shape := ⟨2, ![1000000, 1]⟩
abbrev S100000x1 : Shape := ⟨2, ![100000, 1]⟩
abbrev S100000 : Shape := ⟨1, ![100000]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S1000000x1 : S_.BroadcastsInDim S1000000x1 (![] : Fin 0 → Fin S1000000x1.rank)
  reducesTo_S1000000x1_S_d0_1 : S1000000x1.ReducesTo [0, 1] S_
  bcast_S_S100000x1 : S_.BroadcastsInDim S100000x1 (![] : Fin 0 → Fin S100000x1.rank)
  reducesTo_S100000x1_S_d0_1 : S100000x1.ReducesTo [0, 1] S_
  bcast_S_S100000 : S_.BroadcastsInDim S100000 (![] : Fin 0 → Fin S100000.rank)
  reducesTo_S100000_S_d0 : S100000.ReducesTo [0] S_

variable [Facts]

def fn_part1 {F : FTy → Type} [FloatOps F] (main_arg6 : FVec F S100000 .f32) (main_v13 : IVec S_ 1) (main_v16 : IVec S100000x1 1) : IVec S_ 1 :=
  let main_c_5 : IVec S_ 1 := constantI S_ 1 1#1
  let main_v17 : IVec S_ 1 := (fun x v => Host.reduce IntOp.andi x v reducesTo_S100000x1_S_d0_1 h_S_) main_v16 main_c_5
  let main_v18 : IVec S_ 1 := andi main_v13 main_v17
  let main_v19 : FVec F S100000 .f32 := Host.absf main_arg6
  let main_cst_6 : FVec F S_ .f32 := constant S_ .f32 0x7F800000#32
  let main_v20 : FVec F S100000 .f32 := broadcastInDim S100000 ![] bcast_S_S100000 main_cst_6
  let main_v21 : IVec S100000 1 := cmpf .olt main_v19 main_v20
  let main_c_7 : IVec S_ 1 := constantI S_ 1 1#1
  let main_v22 : IVec S_ 1 := (fun x v => Host.reduce IntOp.andi x v reducesTo_S100000_S_d0 h_S_) main_v21 main_c_7
  let main_v23 : IVec S_ 1 := andi main_v18 main_v22
  main_v23

def fn {F : FTy → Type} [FloatOps F] (main_arg0 : IVec S1048576 32) (main_arg1 : IVec S1048576 32) (main_arg2 : FVec F S1000000x64 .f32) (main_arg3 : FVec F S100000x64 .f32) (main_arg4 : FVec F S1000000x1 .f32) (main_arg5 : FVec F S100000x1 .f32) (main_arg6 : FVec F S100000 .f32) : IVec S_ 1 :=
  let main_v0 : FVec F S1000000x64 .f32 := Host.absf main_arg2
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S1000000x1 .f32 := Host.absf main_arg4
  let main_cst_2 : FVec F S_ .f32 := constant S_ .f32 0x7F800000#32
  let main_v10 : FVec F S1000000x1 .f32 := broadcastInDim S1000000x1 ![] bcast_S_S1000000x1 main_cst_2
  let main_v11 : IVec S1000000x1 1 := cmpf .olt main_v9 main_v10
  let main_c_3 : IVec S_ 1 := constantI S_ 1 1#1
  let main_v12 : IVec S_ 1 := (fun x v => Host.reduce IntOp.andi x v reducesTo_S1000000x1_S_d0_1 h_S_) main_v11 main_c_3
  let main_v13 : IVec S_ 1 := andi main_v8 main_v12
  let main_v14 : FVec F S100000x1 .f32 := Host.absf main_arg5
  let main_cst_4 : FVec F S_ .f32 := constant S_ .f32 0x7F800000#32
  let main_v15 : FVec F S100000x1 .f32 := broadcastInDim S100000x1 ![] bcast_S_S100000x1 main_cst_4
  let main_v16 : IVec S100000x1 1 := cmpf .olt main_v14 main_v15
  fn_part1 (F := F) main_arg6 main_v13 main_v16
-- ==== Kernel.lean ====
abbrev S1048576 : Shape := ⟨1, ![1048576]⟩
abbrev S1000000x64 : Shape := ⟨2, ![1000000, 64]⟩
abbrev S100000x64 : Shape := ⟨2, ![100000, 64]⟩
abbrev S1000000x1 : Shape := ⟨2, ![1000000, 1]⟩
abbrev S100000x1 : Shape := ⟨2, ![100000, 1]⟩
abbrev S100000 : Shape := ⟨1, ![100000]⟩
abbrev S_ : Shape := ⟨0, ![]⟩
abbrev S1048576x1 : Shape := ⟨2, ![1048576, 1]⟩
abbrev S1048576x64 : Shape := ⟨2, ![1048576, 64]⟩
abbrev S1x1048576 : Shape := ⟨2, ![1, 1048576]⟩
abbrev S2x1048576 : Shape := ⟨2, ![2, 1048576]⟩
abbrev S8192x64 : Shape := ⟨2, ![8192, 64]⟩
abbrev S2x8192 : Shape := ⟨2, ![2, 8192]⟩
abbrev S8192 : Shape := ⟨1, ![8192]⟩
abbrev S1x8192 : Shape := ⟨2, ![1, 8192]⟩

abbrev nBuf : Space → Nat
  | .hbm => 62
  | .vmem => 8
  | .smem => 0
  | _ => 0

abbrev bufTy : (tb : Table) → Fin (tcTables nBuf tb) → BufTy
  | .hbm, ⟨0, _⟩ => ⟨S1048576, .i32⟩
  | .hbm, ⟨1, _⟩ => ⟨S1048576, .i32⟩
  | .hbm, ⟨2, _⟩ => ⟨S1000000x64, .f32⟩
  | .hbm, ⟨3, _⟩ => ⟨S100000x64, .f32⟩
  | .hbm, ⟨4, _⟩ => ⟨S1000000x1, .f32⟩
  | .hbm, ⟨5, _⟩ => ⟨S100000x1, .f32⟩
  | .hbm, ⟨6, _⟩ => ⟨S100000, .f32⟩
  | .hbm, ⟨7, _⟩ => ⟨S_, .i32⟩
  | .hbm, ⟨8, _⟩ => ⟨S1048576, .i32⟩
  | .hbm, ⟨9, _⟩ => ⟨S1048576, .i1⟩
  | .hbm, ⟨10, _⟩ => ⟨S_, .i32⟩
  | .hbm, ⟨11, _⟩ => ⟨S1048576, .i32⟩
  | .hbm, ⟨12, _⟩ => ⟨S1048576, .i32⟩
  | .hbm, ⟨13, _⟩ => ⟨S1048576, .i32⟩
  | .hbm, ⟨14, _⟩ => ⟨S1048576x1, .i32⟩
  | .hbm, ⟨15, _⟩ => ⟨S1048576x64, .f32⟩
  | .hbm, ⟨16, _⟩ => ⟨S_, .i32⟩
  | .hbm, ⟨17, _⟩ => ⟨S1048576, .i32⟩
  | .hbm, ⟨18, _⟩ => ⟨S1048576, .i1⟩
  | .hbm, ⟨19, _⟩ => ⟨S_, .i32⟩
  | .hbm, ⟨20, _⟩ => ⟨S1048576, .i32⟩
  | .hbm, ⟨21, _⟩ => ⟨S1048576, .i32⟩
  | .hbm, ⟨22, _⟩ => ⟨S1048576, .i32⟩
  | .hbm, ⟨23, _⟩ => ⟨S1048576x1, .i32⟩
  | .hbm, ⟨24, _⟩ => ⟨S1048576x64, .f32⟩
  | .hbm, ⟨25, _⟩ => ⟨S_, .i32⟩
  | .hbm, ⟨26, _⟩ => ⟨S1048576, .i32⟩
  | .hbm, ⟨27, _⟩ => ⟨S1048576, .i1⟩
  | .hbm, ⟨28, _⟩ => ⟨S_, .i32⟩
  | .hbm, ⟨29, _⟩ => ⟨S1048576, .i32⟩
  | .hbm, ⟨30, _⟩ => ⟨S1048576, .i32⟩
  | .hbm, ⟨31, _⟩ => ⟨S1048576, .i32⟩
  | .hbm, ⟨32, _⟩ => ⟨S1048576x1, .i32⟩
  | .hbm, ⟨33, _⟩ => ⟨S1048576x1, .f32⟩
  | .hbm, ⟨34, _⟩ => ⟨S1048576, .f32⟩
  | .hbm, ⟨35, _⟩ => ⟨S_, .i32⟩
  | .hbm, ⟨36, _⟩ => ⟨S1048576, .i32⟩
  | .hbm, ⟨37, _⟩ => ⟨S1048576, .i1⟩
  | .hbm, ⟨38, _⟩ => ⟨S_, .i32⟩
  | .hbm, ⟨39, _⟩ => ⟨S1048576, .i32⟩
  | .hbm, ⟨40, _⟩ => ⟨S1048576, .i32⟩
  | .hbm, ⟨41, _⟩ => ⟨S1048576, .i32⟩
  | .hbm, ⟨42, _⟩ => ⟨S1048576x1, .i32⟩
  | .hbm, ⟨43, _⟩ => ⟨S1048576x1, .f32⟩
  | .hbm, ⟨44, _⟩ => ⟨S1048576, .f32⟩
  | .hbm, ⟨45, _⟩ => ⟨S_, .i32⟩
  | .hbm, ⟨46, _⟩ => ⟨S1048576, .i32⟩
  | .hbm, ⟨47, _⟩ => ⟨S1048576, .i1⟩
  | .hbm, ⟨48, _⟩ => ⟨S_, .i32⟩
  | .hbm, ⟨49, _⟩ => ⟨S1048576, .i32⟩
  | .hbm, ⟨50, _⟩ => ⟨S1048576, .i32⟩
  | .hbm, ⟨51, _⟩ => ⟨S1048576, .i32⟩
  | .hbm, ⟨52, _⟩ => ⟨S1048576x1, .i32⟩
  | .hbm, ⟨53, _⟩ => ⟨S1048576, .f32⟩
  | .hbm, ⟨54, _⟩ => ⟨S_, .f32⟩
  | .hbm, ⟨55, _⟩ => ⟨S1048576, .f32⟩
  | .hbm, ⟨56, _⟩ => ⟨S1048576, .f32⟩
  | .hbm, ⟨57, _⟩ => ⟨S1048576, .f32⟩
  | .hbm, ⟨58, _⟩ => ⟨S1x1048576, .f32⟩
  | .hbm, ⟨59, _⟩ => ⟨S1x1048576, .f32⟩
  | .hbm, ⟨60, _⟩ => ⟨S2x1048576, .f32⟩
  | .hbm, ⟨61, _⟩ => ⟨S1048576, .f32⟩
  | .local _ .vmem, ⟨0, _⟩ => ⟨S8192x64, .f32⟩
  | .local _ .vmem, ⟨1, _⟩ => ⟨S8192x64, .f32⟩
  | .local _ .vmem, ⟨2, _⟩ => ⟨S8192x64, .f32⟩
  | .local _ .vmem, ⟨3, _⟩ => ⟨S8192x64, .f32⟩
  | .local _ .vmem, ⟨4, _⟩ => ⟨S2x8192, .f32⟩
  | .local _ .vmem, ⟨5, _⟩ => ⟨S2x8192, .f32⟩
  | .local _ .vmem, ⟨6, _⟩ => ⟨S8192, .f32⟩
  | .local _ .vmem, ⟨7, _⟩ => ⟨S8192, .f32⟩
  | _, _ => ⟨S1048576, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_c_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  shapeCasts_S1048576x1_S1048576 : S1048576x1.ShapeCasts S1048576
  bcast_S1048576_S1x1048576_1 : S1048576.BroadcastsInDim S1x1048576 (![1] : Fin 1 → Fin S1x1048576.rank)
  concatenates_S1x1048576_S1x1048576_S2x1048576_d0 : Shape.Concatenates [S1x1048576, S1x1048576] S2x1048576 0
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  reduces_S8192x64_S8192 : S8192x64.Reduces [1] S8192
  inb_S2x8192_S1x8192_0_0 : ∀ a, (![0, 0] : Fin 2 → Nat) a + S1x8192.size a ≤ S2x8192.size a
  h_S1x8192 : 0 < S1x8192.numel
  shapeCasts_S1x8192_S8192 : S1x8192.ShapeCasts S8192
  inb_S2x8192_S1x8192_1_0 : ∀ a, (![1, 0] : Fin 2 → Nat) a + S1x8192.size a ≤ S2x8192.size a
  inb_S8192_S8192_0 : ∀ a, (![0] : Fin 1 → Nat) a + S8192.size a ≤ S8192.size a
  h_S8192 : 0 < S8192.numel
  gather_S1000000x64_S1048576x1_S1048576x64_1_0_n_n_0_1_164_wf : GatherDims.WF S1000000x64 S1048576x1 S1048576x64 [1] [0] [] [0] [] 1 ![1, 64]
  gather_S100000x64_S1048576x1_S1048576x64_1_0_n_n_0_1_164_wf : GatherDims.WF S100000x64 S1048576x1 S1048576x64 [1] [0] [] [0] [] 1 ![1, 64]
  gather_S1000000x1_S1048576x1_S1048576x1_1_0_n_n_0_1_11_wf : GatherDims.WF S1000000x1 S1048576x1 S1048576x1 [1] [0] [] [0] [] 1 ![1, 1]
  gather_S100000x1_S1048576x1_S1048576x1_1_0_n_n_0_1_11_wf : GatherDims.WF S100000x1 S1048576x1 S1048576x1 [1] [0] [] [0] [] 1 ![1, 1]
  gather_S100000_S1048576x1_S1048576_n_0_n_n_0_1_1_wf : GatherDims.WF S100000 S1048576x1 S1048576 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S1048576x64.size a
  hwx0_0 : ∀ i : grid0.Coords, EltTy.bits .f32 = 32 ∨ (Rect.block (s := S1048576x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S1048576x64.size a
  hwx0_1 : ∀ i : grid0.Coords, EltTy.bits .f32 = 32 ∨ (Rect.block (s := S1048576x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x8192.size a ≤ S2x1048576.size a
  hwx0_2 : ∀ i : grid0.Coords, EltTy.bits .f32 = 32 ∨ (Rect.block (s := S2x1048576) S2x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192.size a ≤ S1048576.size a
  hwx0_3 : ∀ i : grid0.Coords, EltTy.bits .f32 = 32 ∨ (Rect.block (s := S1048576) S8192.size (cc0_transform_3 i) (hinb0_3 i)).WholeWords (EltTy.packing .f32)

variable [Facts₀]

def gather_S1000000x64_S1048576x1_S1048576x64_1_0_n_n_0_1_164 : GatherDims S1000000x64 S1048576x1 S1048576x64 where
  offsetDims := [1]
  collapsedSliceDims := [0]
  operandBatchingDims := []
  startIndicesBatchingDims := []
  startIndexMap := [0]
  indexVectorDim := 1
  sliceSizes := ![1, 64]
  wf := gather_S1000000x64_S1048576x1_S1048576x64_1_0_n_n_0_1_164_wf
def gather_S100000x64_S1048576x1_S1048576x64_1_0_n_n_0_1_164 : GatherDims S100000x64 S1048576x1 S1048576x64 where
  offsetDims := [1]
  collapsedSliceDims := [0]
  operandBatchingDims := []
  startIndicesBatchingDims := []
  startIndexMap := [0]
  indexVectorDim := 1
  sliceSizes := ![1, 64]
  wf := gather_S100000x64_S1048576x1_S1048576x64_1_0_n_n_0_1_164_wf
def gather_S1000000x1_S1048576x1_S1048576x1_1_0_n_n_0_1_11 : GatherDims S1000000x1 S1048576x1 S1048576x1 where
  offsetDims := [1]
  collapsedSliceDims := [0]
  operandBatchingDims := []
  startIndicesBatchingDims := []
  startIndexMap := [0]
  indexVectorDim := 1
  sliceSizes := ![1, 1]
  wf := gather_S1000000x1_S1048576x1_S1048576x1_1_0_n_n_0_1_11_wf
def gather_S100000x1_S1048576x1_S1048576x1_1_0_n_n_0_1_11 : GatherDims S100000x1 S1048576x1 S1048576x1 where
  offsetDims := [1]
  collapsedSliceDims := [0]
  operandBatchingDims := []
  startIndicesBatchingDims := []
  startIndexMap := [0]
  indexVectorDim := 1
  sliceSizes := ![1, 1]
  wf := gather_S100000x1_S1048576x1_S1048576x1_1_0_n_n_0_1_11_wf
def gather_S100000_S1048576x1_S1048576_n_0_n_n_0_1_1 : GatherDims S100000 S1048576x1 S1048576 where
  offsetDims := []
  collapsedSliceDims := [0]
  operandBatchingDims := []
  startIndicesBatchingDims := []
  startIndexMap := [0]
  indexVectorDim := 1
  sliceSizes := ![1]
  wf := gather_S100000_S1048576x1_S1048576_n_0_n_n_0_1_1_wf

abbrev win0_0 : Pipeline.Window sig grid0 :=
  Pipeline.Window.ofSpec (Memref.whole main_v6) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v42) S2x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v43) S8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1048576 : Shape := ⟨1, ![1048576]⟩
abbrev S1000000x64 : Shape := ⟨2, ![1000000, 64]⟩
abbrev S100000x64 : Shape := ⟨2, ![100000, 64]⟩
abbrev S1000000x1 : Shape := ⟨2, ![1000000, 1]⟩
abbrev S100000x1 : Shape := ⟨2, ![100000, 1]⟩
abbrev S100000 : Shape := ⟨1, ![100000]⟩
abbrev S_ : Shape := ⟨0, ![]⟩
abbrev S1048576x1 : Shape := ⟨2, ![1048576, 1]⟩
abbrev S1048576x64 : Shape := ⟨2, ![1048576, 64]⟩

abbrev nBuf : Space → Nat
  | .hbm => 88
  | .vmem => 0
  | .smem => 0
  | _ => 0

abbrev bufTy : (tb : Table) → Fin (tcTables nBuf tb) → BufTy
  | .hbm, ⟨0, _⟩ => ⟨S1048576, .i32⟩
  | .hbm, ⟨1, _⟩ => ⟨S1048576, .i32⟩
  | .hbm, ⟨2, _⟩ => ⟨S1000000x64, .f32⟩
  | .hbm, ⟨3, _⟩ => ⟨S100000x64, .f32⟩
  | .hbm, ⟨4, _⟩ => ⟨S1000000x1, .f32⟩
  | .hbm, ⟨5, _⟩ => ⟨S100000x1, .f32⟩
  | .hbm, ⟨6, _⟩ => ⟨S100000, .f32⟩
  | .hbm, ⟨7, _⟩ => ⟨S_, .i32⟩
  | .hbm, ⟨8, _⟩ => ⟨S1048576, .i32⟩
  | .hbm, ⟨9, _⟩ => ⟨S1048576, .i1⟩
  | .hbm, ⟨10, _⟩ => ⟨S_, .i32⟩
  | .hbm, ⟨11, _⟩ => ⟨S1048576, .i32⟩
  | .hbm, ⟨12, _⟩ => ⟨S1048576, .i32⟩
  | .hbm, ⟨13, _⟩ => ⟨S1048576, .i32⟩
  | .hbm, ⟨14, _⟩ => ⟨S1048576x1, .i32⟩
  | .hbm, ⟨15, _⟩ => ⟨S1048576x64, .f32⟩
  | .hbm, ⟨16, _⟩ => ⟨S_, .i32⟩
  | .hbm, ⟨17, _⟩ => ⟨S1048576, .i32⟩
  | .hbm, ⟨18, _⟩ => ⟨S1048576, .i1⟩
  | .hbm, ⟨19, _⟩ => ⟨S_, .i32⟩
  | .hbm, ⟨20, _⟩ => ⟨S1048576, .i32⟩
  | .hbm, ⟨21, _⟩ => ⟨S1048576, .i32⟩
  | .hbm, ⟨22, _⟩ => ⟨S1048576, .i32⟩
  | .hbm, ⟨23, _⟩ => ⟨S1048576x1, .i32⟩
  | .hbm, ⟨24, _⟩ => ⟨S1048576x64, .f32⟩
  | .hbm, ⟨25, _⟩ => ⟨S1048576x64, .f32⟩
  | .hbm, ⟨26, _⟩ => ⟨S_, .f32⟩
  | .hbm, ⟨27, _⟩ => ⟨S1048576, .f32⟩
  | .hbm, ⟨28, _⟩ => ⟨S1048576x1, .f32⟩
  | .hbm, ⟨29, _⟩ => ⟨S_, .f32⟩
  | .hbm, ⟨30, _⟩ => ⟨S1048576x1, .f32⟩
  | .hbm, ⟨31, _⟩ => ⟨S1048576x1, .i1⟩
  | .hbm, ⟨32, _⟩ => ⟨S1048576x1, .f32⟩
  | .hbm, ⟨33, _⟩ => ⟨S_, .f32⟩
  | .hbm, ⟨34, _⟩ => ⟨S1048576x1, .f32⟩
  | .hbm, ⟨35, _⟩ => ⟨S1048576x1, .f32⟩
  | .hbm, ⟨36, _⟩ => ⟨S1048576x1, .f32⟩
  | .hbm, ⟨37, _⟩ => ⟨S_, .i32⟩
  | .hbm, ⟨38, _⟩ => ⟨S1048576, .i32⟩
  | .hbm, ⟨39, _⟩ => ⟨S1048576, .i1⟩
  | .hbm, ⟨40, _⟩ => ⟨S_, .i32⟩
  | .hbm, ⟨41, _⟩ => ⟨S1048576, .i32⟩
  | .hbm, ⟨42, _⟩ => ⟨S1048576, .i32⟩
  | .hbm, ⟨43, _⟩ => ⟨S1048576, .i32⟩
  | .hbm, ⟨44, _⟩ => ⟨S1048576x1, .i32⟩
  | .hbm, ⟨45, _⟩ => ⟨S1048576, .f32⟩
  | .hbm, ⟨46, _⟩ => ⟨S_, .f32⟩
  | .hbm, ⟨47, _⟩ => ⟨S1048576, .f32⟩
  | .hbm, ⟨48, _⟩ => ⟨S1048576, .f32⟩
  | .hbm, ⟨49, _⟩ => ⟨S1048576x1, .f32⟩
  | .hbm, ⟨50, _⟩ => ⟨S1048576x1, .f32⟩
  | .hbm, ⟨51, _⟩ => ⟨S1048576x1, .f32⟩
  | .hbm, ⟨52, _⟩ => ⟨S_, .f32⟩
  | .hbm, ⟨53, _⟩ => ⟨S1048576x1, .f32⟩
  | .hbm, ⟨54, _⟩ => ⟨S1048576x1, .f32⟩
  | .hbm, ⟨55, _⟩ => ⟨S1048576x1, .f32⟩
  | .hbm, ⟨56, _⟩ => ⟨S1048576x1, .f32⟩
  | .hbm, ⟨57, _⟩ => ⟨S1048576x1, .i1⟩
  | .hbm, ⟨58, _⟩ => ⟨S1048576x1, .f32⟩
  | .hbm, ⟨59, _⟩ => ⟨S1048576x1, .f32⟩
  | .hbm, ⟨60, _⟩ => ⟨S1048576x1, .f32⟩
  | .hbm, ⟨61, _⟩ => ⟨S1048576x1, .f32⟩
  | .hbm, ⟨62, _⟩ => ⟨S1048576x1, .f32⟩
  | .hbm, ⟨63, _⟩ => ⟨S1048576x1, .f32⟩
  | .hbm, ⟨64, _⟩ => ⟨S1048576x1, .f32⟩
  | .hbm, ⟨65, _⟩ => ⟨S1048576x1, .f32⟩
  | .hbm, ⟨66, _⟩ => ⟨S1048576x1, .f32⟩
  | .hbm, ⟨67, _⟩ => ⟨S_, .i32⟩
  | .hbm, ⟨68, _⟩ => ⟨S1048576, .i32⟩
  | .hbm, ⟨69, _⟩ => ⟨S1048576, .i1⟩
  | .hbm, ⟨70, _⟩ => ⟨S_, .i32⟩
  | .hbm, ⟨71, _⟩ => ⟨S1048576, .i32⟩
  | .hbm, ⟨72, _⟩ => ⟨S1048576, .i32⟩
  | .hbm, ⟨73, _⟩ => ⟨S1048576, .i32⟩
  | .hbm, ⟨74, _⟩ => ⟨S1048576x1, .i32⟩
  | .hbm, ⟨75, _⟩ => ⟨S1048576x1, .f32⟩
  | .hbm, ⟨76, _⟩ => ⟨S1048576x1, .f32⟩
  | .hbm, ⟨77, _⟩ => ⟨S_, .i32⟩
  | .hbm, ⟨78, _⟩ => ⟨S1048576, .i32⟩
  | .hbm, ⟨79, _⟩ => ⟨S1048576, .i1⟩
  | .hbm, ⟨80, _⟩ => ⟨S_, .i32⟩
  | .hbm, ⟨81, _⟩ => ⟨S1048576, .i32⟩
  | .hbm, ⟨82, _⟩ => ⟨S1048576, .i32⟩
  | .hbm, ⟨83, _⟩ => ⟨S1048576, .i32⟩
  | .hbm, ⟨84, _⟩ => ⟨S1048576x1, .i32⟩
  | .hbm, ⟨85, _⟩ => ⟨S1048576x1, .f32⟩
  | .hbm, ⟨86, _⟩ => ⟨S1048576x1, .f32⟩
  | .hbm, ⟨87, _⟩ => ⟨S1048576, .f32⟩
  | _, _ => ⟨S1048576, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call1_v0 : Ref sig .tc := ⟨.hbm, 51, rfl⟩
abbrev main_call1_call0_cst : Ref sig .tc := ⟨.hbm, 52, rfl⟩
abbrev main_call1_call0_v0 : Ref sig .tc := ⟨.hbm, 53, rfl⟩
abbrev main_call1_call0_v1 : Ref sig .tc := ⟨.hbm, 54, rfl⟩
abbrev main_call1_call0_v2 : Ref sig .tc := ⟨.hbm, 55, rfl⟩
abbrev main_call1_call0_v3 : Ref sig .tc := ⟨.hbm, 56, rfl⟩
abbrev main_call1_call0_v4 : Ref sig .tc := ⟨.hbm, 57, rfl⟩
abbrev main_call1_call0_v5 : Ref sig .tc := ⟨.hbm, 58, rfl⟩
abbrev main_call1_call0_v6 : Ref sig .tc := ⟨.hbm, 59, rfl⟩
abbrev main_call1_call0_v7 : Ref sig .tc := ⟨.hbm, 60, rfl⟩
abbrev main_call1_call0_v8 : Ref sig .tc := ⟨.hbm, 61, rfl⟩
abbrev main_call1_call0_v9 : Ref sig .tc := ⟨.hbm, 62, rfl⟩
abbrev main_call1_call0_v10 : Ref sig .tc := ⟨.hbm, 63, rfl⟩
abbrev main_call1_call0_v11 : Ref sig .tc := ⟨.hbm, 64, rfl⟩
abbrev main_call1_v1 : Ref sig .tc := ⟨.hbm, 65, rfl⟩
abbrev main_v34 : Ref sig .tc := ⟨.hbm, 66, rfl⟩
abbrev main_c_8 : Ref sig .tc := ⟨.hbm, 67, rfl⟩
abbrev main_v35 : Ref sig .tc := ⟨.hbm, 68, rfl⟩
abbrev main_v36 : Ref sig .tc := ⟨.hbm, 69, rfl⟩
abbrev main_c_9 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_c_10 : Ref sig .tc := ⟨.hbm, 77, rfl⟩
abbrev main_v43 : Ref sig .tc := ⟨.hbm, 78, rfl⟩
abbrev main_v44 : Ref sig .tc := ⟨.hbm, 79, rfl⟩
abbrev main_c_11 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩

abbrev nD : Nat := 1
abbrev τ : Topo := Topo.v7x

variable {F : FTy → Type} [FloatOps F]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  reducesTo_S1048576x64_S1048576_d1 : S1048576x64.ReducesTo [1] S1048576
  h_S_ : 0 < S_.numel
  bcast_S_S1048576x1 : S_.BroadcastsInDim S1048576x1 (![] : Fin 0 → Fin S1048576x1.rank)
  shapeCasts_S1048576x1_S1048576 : S1048576x1.ShapeCasts S1048576
  gather_S1000000x64_S1048576x1_S1048576x64_1_0_n_n_0_1_164_wf : GatherDims.WF S1000000x64 S1048576x1 S1048576x64 [1] [0] [] [0] [] 1 ![1, 64]
  gather_S100000x64_S1048576x1_S1048576x64_1_0_n_n_0_1_164_wf : GatherDims.WF S100000x64 S1048576x1 S1048576x64 [1] [0] [] [0] [] 1 ![1, 64]
  gather_S100000_S1048576x1_S1048576_n_0_n_n_0_1_1_wf : GatherDims.WF S100000 S1048576x1 S1048576 [] [0] [] [0] [] 1 ![1]
  gather_S1000000x1_S1048576x1_S1048576x1_1_0_n_n_0_1_11_wf : GatherDims.WF S1000000x1 S1048576x1 S1048576x1 [1] [0] [] [0] [] 1 ![1, 1]
  gather_S100000x1_S1048576x1_S1048576x1_1_0_n_n_0_1_11_wf : GatherDims.WF S100000x1 S1048576x1 S1048576x1 [1] [0] [] [0] [] 1 ![1, 1]

variable [Facts₀]

def gather_S1000000x64_S1048576x1_S1048576x64_1_0_n_n_0_1_164 : GatherDims S1000000x64 S1048576x1 S1048576x64 where
  offsetDims := [1]
  collapsedSliceDims := [0]
  operandBatchingDims := []
  startIndicesBatchingDims := []
  startIndexMap := [0]
  indexVectorDim := 1
  sliceSizes := ![1, 64]
  wf := gather_S1000000x64_S1048576x1_S1048576x64_1_0_n_n_0_1_164_wf
def gather_S100000x64_S1048576x1_S1048576x64_1_0_n_n_0_1_164 : GatherDims S100000x64 S1048576x1 S1048576x64 where
  offsetDims := [1]
  collapsedSliceDims := [0]
  operandBatchingDims := []
  startIndicesBatchingDims := []
  startIndexMap := [0]
  indexVectorDim := 1
  sliceSizes := ![1, 64]
  wf := gather_S100000x64_S1048576x1_S1048576x64_1_0_n_n_0_1_164_wf
def gather_S100000_S1048576x1_S1048576_n_0_n_n_0_1_1 : GatherDims S100000 S1048576x1 S1048576 where
  offsetDims := []
  collapsedSliceDims := [0]
  operandBatchingDims := []
  startIndicesBatchingDims := []
  startIndexMap := [0]
  indexVectorDim := 1
  sliceSizes := ![1]
  wf := gather_S100000_S1048576x1_S1048576_n_0_n_n_0_1_1_wf
def gather_S1000000x1_S1048576x1_S1048576x1_1_0_n_n_0_1_11 : GatherDims S1000000x1 S1048576x1 S1048576x1 where
  offsetDims := [1]
  collapsedSliceDims := [0]
  operandBatchingDims := []
  startIndicesBatchingDims := []
  startIndexMap := [0]
  indexVectorDim := 1
  sliceSizes := ![1, 1]
  wf := gather_S1000000x1_S1048576x1_S1048576x1_1_0_n_n_0_1_11_wf
def gather_S100000x1_S1048576x1_S1048576x1_1_0_n_n_0_1_11 : GatherDims S100000x1 S1048576x1 S1048576x1 where
  offsetDims := [1]
  collapsedSliceDims := [0]
  operandBatchingDims := []
  startIndicesBatchingDims := []
  startIndexMap := [0]
  indexVectorDim := 1
  sliceSizes := ![1, 1]
  wf := gather_S100000x1_S1048576x1_S1048576x1_1_0_n_n_0_1_11_wf

class Facts : Prop extends Facts₀ where

variable [Facts]
-- ==== Proof.KerHost.lean ====
/-
  What the kernel's three input arrays hold when the kernel is launched.

  Before the launch the entry function prepares, with whole-array host operations: the rows of the two embedding
  tables picked by the batch's (wrapped) indices — the kernel's first two operands, [B, 64] each — and a two-row side
  array [2, B] whose row 0 is the sum of the two gathered bias columns (each recast from [B, 1] to [B]) and whose row 1
  is the gathered popularity to the power one half. Each is read off the fold of the host operations over the launch
  memory, as a term of the seven arguments.
-/
import proofs.«149221_j70351564308610_2_alg».proof.Proof.Gen.KernelIdeal.Frame
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.StableHlo

variable {F : FTy → Type} [FloatOps F]

/-- A batch of indices, a negative one wrapped around by the table's extent `n`, as a column [B, 1]. -/
def wrapCol (n : BitVec 32) (a : (⟨S1048576, .i32⟩ : BufTy).Contents (Elt F)) : (⟨S1048576x1, .i32⟩ : BufTy).Contents (Elt F) :=
  broadcastInDim S1048576x1 ![0] bcast_S1048576_S1048576x1_0
    (select (cmpi .slt a (broadcastInDim S1048576 ![] bcast_S_S1048576 (constantI S_ 32 0#32)))
      (addi a (broadcastInDim S1048576 ![] bcast_S_S1048576 (constantI S_ 32 n))) a)

/-- The side array [2, B]: row 0 the sum of the two bias columns, row 1 the weights. -/
def sideRows (UB IB : (⟨S1048576x1, .f32⟩ : BufTy).Contents (Elt F)) (Pw : (⟨S1048576, .f32⟩ : BufTy).Contents (Elt F)) : (⟨S2x1048576, .f32⟩ : BufTy).Contents (Elt F) :=
  concatenate S2x1048576 0
    [⟨S1x1048576, broadcastInDim S1x1048576 ![1] bcast_S1048576_S1x1048576_1
        (addf (shapeCast S1048576 UB shapeCasts_S1048576x1_S1048576) (shapeCast S1048576 IB shapeCasts_S1048576x1_S1048576))⟩,
     ⟨S1x1048576, broadcastInDim S1x1048576 ![1] bcast_S1048576_S1x1048576_1 Pw⟩]
    concatenates_S1x1048576_S1x1048576_S2x1048576_d0

variable (m : (ℓ : Loc nD τ sig) → Buf (Elt F) ℓ)

/-- The gathered user rows. -/
def rowsU (c : Dev nD) : (⟨S1048576x64, .f32⟩ : BufTy).Contents (Elt F) :=
  Host.gather gather_S1000000x64_S1048576x1_S1048576x64_1_0_n_n_0_1_164 (m ((c : Thread nD τ).loc main_arg2)) (wrapCol 1000000#32 (m ((c : Thread nD τ).loc main_arg0)))
/-- The gathered item rows. -/
def rowsV (c : Dev nD) : (⟨S1048576x64, .f32⟩ : BufTy).Contents (Elt F) :=
  Host.gather gather_S100000x64_S1048576x1_S1048576x64_1_0_n_n_0_1_164 (m ((c : Thread nD τ).loc main_arg3)) (wrapCol 100000#32 (m ((c : Thread nD τ).loc main_arg1)))
/-- The gathered user bias column. -/
def colUB (c : Dev nD) : (⟨S1048576x1, .f32⟩ : BufTy).Contents (Elt F) :=
  Host.gather gather_S1000000x1_S1048576x1_S1048576x1_1_0_n_n_0_1_11 (m ((c : Thread nD τ).loc main_arg4)) (wrapCol 1000000#32 (m ((c : Thread nD τ).loc main_arg0)))
/-- The gathered item bias column. -/
def colIB (c : Dev nD) : (⟨S1048576x1, .f32⟩ : BufTy).Contents (Elt F) :=
  Host.gather gather_S100000x1_S1048576x1_S1048576x1_1_0_n_n_0_1_11 (m ((c : Thread nD τ).loc main_arg5)) (wrapCol 100000#32 (m ((c : Thread nD τ).loc main_arg1)))
/-- The gathered popularity to the power one half. -/
def vecPw (c : Dev nD) : (⟨S1048576, .f32⟩ : BufTy).Contents (Elt F) :=
  Host.powf (Host.gather gather_S100000_S1048576x1_S1048576_n_0_n_n_0_1_1 (m ((c : Thread nD τ).loc main_arg6)) (wrapCol 100000#32 (m ((c : Thread nD τ).loc main_arg1))))
    (broadcastInDim S1048576 ![] bcast_S_S1048576 (constant S_ .f32 0x3F000000#32))

attribute [local irreducible] Host.gather Host.powf concatenate in
set_option maxRecDepth 8192 in
set_option maxHeartbeats 4000000 in
/-- The kernel's first operand at launch. -/
theorem V_rowsU (c : Dev nD) : (V m c main_v6 : (⟨S1048576x64, .f32⟩ : BufTy).Contents (Elt F)) = rowsU m c := by
  dsimp only [Gen.V, Gen.hostOps0]
  after_results_simp
  rfl

attribute [local irreducible] Host.gather Host.powf concatenate in
set_option maxRecDepth 8192 in
set_option maxHeartbeats 4000000 in
/-- The kernel's second operand at launch. -/
theorem V_rowsV (c : Dev nD) : (V m c main_v13 : (⟨S1048576x64, .f32⟩ : BufTy).Contents (Elt F)) = rowsV m c := by
  dsimp only [Gen.V, Gen.hostOps0]
  after_results_simp
  rfl

attribute [local irreducible] Host.gather Host.powf concatenate in
set_option maxRecDepth 8192 in
set_option maxHeartbeats 4000000 in
/-- The kernel's third operand at launch. -/
theorem V_sideRows (c : Dev nD) :
    (V m c main_v42 : (⟨S2x1048576, .f32⟩ : BufTy).Contents (Elt F)) = sideRows (colUB m c) (colIB m c) (vecPw m c) := by
  dsimp only [Gen.V, Gen.hostOps0]
  after_results_simp
  rfl

end Cert.KernelIdeal.HostSide

end
-- ==== Proof.RowMath.lean ====
/-
  The scalar mathematics of the equivalence, on the extended reals.

  Per batch row both programs compute, from the row's dot product `d`, the popularity weight `w` and the two
  bias entries `ub`, `ib`:

      p = exp d  if d ≤ 0,  d + 1 otherwise;        x = p · w;        result = log σ(x) + ub + ib.

  The two sides differ in three places, each joined by one law below:
  * one side takes `exp (min d 0)` on the branch `d ≤ 0`, where `min d 0 = d`;
  * one side writes `log σ(x)` as `-log1p (exp (-x))` for `0 ≤ x` and `x - log1p (exp x)` for `x < 0`; the other as
    `-(max (-x) 0 + log1p (exp (-|x|)))`, guarded by a comparison `t ≠ t` that is never true on a linear order;
  * one side adds `ub + ib` at once, the other adds `ub` and then `ib`.
  None of these needs finiteness: the only place where a sum is negated has a real second summand.
-/
import Idealize.ShloMosaic.PureOps.Ideal
import Idealize.ShloMosaic.PureOps.Ideal.Laws
import Idealize.ShloMosaic.Lib.ValueIdx

noncomputable section

namespace Cert.RowMath

open Idealize.ShloMosaic Idealize.ShloMosaic.ValueIdx
open scoped BigOperators

/-- The comparison bit of a true proposition selects the first operand. -/
theorem select_ofBool_true {α : Type} {p : Prop} [Decidable p] (h : p) (a b : α) :
    Scalar.select (BitVec.ofBool (decide p)) a b = a := by
  rw [decide_eq_true h]; exact select_one a b

/-- The comparison bit of a false proposition selects the second operand. -/
theorem select_ofBool_false {α : Type} {p : Prop} [Decidable p] (h : ¬p) (a b : α) :
    Scalar.select (BitVec.ofBool (decide p)) a b = b := by
  rw [decide_eq_false h]; exact select_zero a b

/-- The row result as the kernel spells it, the comparisons' zero a parameter `z`: `one` is the literal added on the
    positive branch, `b` the precombined bias. -/
def kernelRowZ (z one d w b : EReal) : EReal :=
  Scalar.select (Ideal.cmp .oge (Scalar.select (Ideal.cmp .ole d z) (Ideal.exp (min d z)) (d + one) * w) z)
      (z - Ideal.log1p (Ideal.exp (z - Scalar.select (Ideal.cmp .ole d z) (Ideal.exp (min d z)) (d + one) * w)))
      (Scalar.select (Ideal.cmp .ole d z) (Ideal.exp (min d z)) (d + one) * w
        - Ideal.log1p (Ideal.exp (Scalar.select (Ideal.cmp .ole d z) (Ideal.exp (min d z)) (d + one) * w)))
    + b

/-- The row result as the kernel spells it. -/
def kernelRow (one d w b : EReal) : EReal := kernelRowZ 0 one d w b

/-- The softplus of `y` as the reference spells it (`logaddexp y 0` with its never-firing guard). -/
def refSoftplus (y : EReal) : EReal :=
  Scalar.select (Ideal.cmp .une (y - 0) (y - 0)) (y + 0)
    (max y 0 + Ideal.log1p (Ideal.exp (-(max (y - 0) (-(y - 0))))))

/-- The row result as the reference spells it. -/
def refRow (one d w ub ib : EReal) : EReal :=
  -(refSoftplus (-(Scalar.select (Ideal.cmp .ole d 0) (Ideal.exp d) (d + one) * w))) + ub + ib

/-- On the branch `d ≤ 0` the clamp `min d 0` is `d` itself. -/
theorem piece_eq (one d : EReal) :
    Scalar.select (Ideal.cmp .ole d 0) (Ideal.exp (min d 0)) (d + one)
      = Scalar.select (Ideal.cmp .ole d 0) (Ideal.exp d) (d + one) := by
  by_cases h : d ≤ 0
  · show Scalar.select (BitVec.ofBool (decide (d ≤ 0))) _ _ = Scalar.select (BitVec.ofBool (decide (d ≤ 0))) _ _
    rw [select_ofBool_true h, select_ofBool_true h, min_eq_left h]
  · show Scalar.select (BitVec.ofBool (decide (d ≤ 0))) _ _ = Scalar.select (BitVec.ofBool (decide (d ≤ 0))) _ _
    rw [select_ofBool_false h, select_ofBool_false h]

/-- For `x < 0` the term `log1p (exp x) = log (1 + eˣ)` is a real number. -/
theorem log1p_exp_real {x : EReal} (hx : x < 0) : ∃ l : ℝ, Ideal.log1p (Ideal.exp x) = (l : EReal) := by
  induction x using EReal.rec with
  | bot =>
    refine ⟨0, ?_⟩
    show Ideal.log (1 + Ideal.exp ⊥) = _
    rw [Ideal.exp_bot, add_zero]
    show Ideal.log ((1 : ℝ) : EReal) = _
    rw [Ideal.log_coe, if_neg (by norm_num), Real.log_one]
  | coe r =>
    refine ⟨Real.log (1 + Real.exp r), ?_⟩
    show Ideal.log (1 + Ideal.exp (r : EReal)) = _
    rw [Ideal.exp_coe]
    show Ideal.log (((1 : ℝ) : EReal) + (Real.exp r : EReal)) = _
    rw [← EReal.coe_add, Ideal.log_coe, if_neg (by have := Real.exp_pos r; linarith)]
  | top => exact absurd hx (not_lt.mpr le_top)

/-- The two spellings of `log σ(x)` agree at every extended real. -/
theorem logsig_eq (x : EReal) :
    Scalar.select (Ideal.cmp .oge x 0) (0 - Ideal.log1p (Ideal.exp (0 - x))) (x - Ideal.log1p (Ideal.exp x))
      = -(refSoftplus (-x)) := by
  have hne : ¬((-x - 0) ≠ (-x - 0)) := fun h => h rfl
  unfold refSoftplus
  show Scalar.select (BitVec.ofBool (decide (0 ≤ x))) _ _
    = -(Scalar.select (BitVec.ofBool (decide ((-x - 0) ≠ (-x - 0)))) _ _)
  rw [select_ofBool_false hne, sub_zero, neg_neg]
  by_cases h : 0 ≤ x
  · have h1 : -x ≤ 0 := by rwa [EReal.neg_le, neg_zero]
    rw [select_ofBool_true h, max_eq_right h1, max_eq_right (h1.trans h), zero_add, zero_sub, zero_sub]
  · have hx : x < 0 := not_le.mp h
    have h1 : 0 ≤ -x := by rw [EReal.le_neg, neg_zero]; exact hx.le
    rw [select_ofBool_false h, max_eq_left h1, max_eq_left (hx.le.trans h1), neg_neg]
    obtain ⟨l, hl⟩ := log1p_exp_real hx
    rw [hl, EReal.neg_add (Or.inr (EReal.coe_ne_top l)) (Or.inr (EReal.coe_ne_bot l)), neg_neg]

/-- The two spellings of the row result agree, for every extended-real input. -/
theorem kernelRow_eq_refRow (one d w ub ib : EReal) :
    kernelRow one d w (ub + ib) = refRow one d w ub ib := by
  unfold kernelRow kernelRowZ refRow
  rw [piece_eq, logsig_eq, add_assoc]

/-- The result array as one function of the five gathered arrays: entry `r` is the row formula of row `r`'s dot
    product, weight and bias entries. -/
def rowsOut (U V : (⟨2, ![1048576, 64]⟩ : Shape).Idx → Ideal .f32) (UB IB : (⟨2, ![1048576, 1]⟩ : Shape).Idx → Ideal .f32)
    (Pw : (⟨1, ![1048576]⟩ : Shape).Idx → Ideal .f32) : (⟨1, ![1048576]⟩ : Shape).Idx → Ideal .f32 :=
  fun i => kernelRow (Ideal.ofBits .f32 0x3F800000#32)
    (∑ k : Fin 64, U (ix2 (i 0 : Fin 1048576) k) * V (ix2 (i 0 : Fin 1048576) k))
    (Pw (ix1 (i 0 : Fin 1048576))) (UB (ix2 (i 0 : Fin 1048576) 0) + IB (ix2 (i 0 : Fin 1048576) 0))

end Cert.RowMath

end
-- ==== Proof.KerPay.lean ====
/-
  The kernel body's stored value, read at one row of a block.

  A block holds 8192 batch rows. The body multiplies the two [8192, 64] blocks entrywise and sums each row's 64
  products; on that row sum `d` it applies the piecewise transform, multiplies by the weight (row 1 of the side
  block), takes the log-sigmoid in its two-branch form, and adds the combined bias (row 0 of the side block).
  Every step but the row sum and the two recasts [1, 8192] → [8192] is pointwise, so the stored vector at row
  `q` of the block is the scalar row formula of that row's data.
-/
import proofs.«149221_j70351564308610_2_alg».proof.Proof.Gen.KernelIdeal.Skeleton
import proofs.«149221_j70351564308610_2_alg».proof.Proof.RowMath
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx
open scoped BigOperators

/-- The lane sum of an [8192, 64] block at row `q`: the sum of the row's 64 entries. -/
theorem rowSum_apply (x : FVec Ideal S8192x64 .f32) (hφ : FKind.Formats .f32)
    (hacc : (0x00000000#32 : BitVec 32) = FKind.add.neutral .f32 hφ) (q : Fin 8192) :
    multiReduction .add [1] S8192 x 0x00000000#32 reduces_S8192x64_S8192 hφ hacc (ix1 q) = ∑ k : Fin 64, x (ix2 q k) :=
  (Ideal.multiReduction_add_single x 0x00000000#32 reduces_S8192x64_S8192 hφ hacc (ix1 q)).trans
    (Finset.sum_congr rfl fun k _ => congrArg x (by
      funext a
      match a with
      | ⟨0, _⟩ => rfl
      | ⟨1, _⟩ => rfl))

/-- The body's arithmetic after the row sum, on whole vectors: `D` the row sums, `b` the bias row, `w` the weight row. -/
def afterSum (D b w : FVec Ideal S8192 .f32) : FVec Ideal S8192 .f32 :=
  addf
    (select
      (cmpf .oge
        (mulf (select (cmpf .ole D (broadcast S8192 (Scalar.ofBits .f32 0x00000000#32)))
          (exp (minimumf D (broadcast S8192 (Scalar.ofBits .f32 0x00000000#32))))
          (addf D (broadcast S8192 (Scalar.ofBits .f32 0x3F800000#32)))) w)
        (broadcast S8192 (Scalar.ofBits .f32 0x00000000#32)))
      (subf (broadcast S8192 (Scalar.ofBits .f32 0x00000000#32))
        (log1p (exp (subf (broadcast S8192 (Scalar.ofBits .f32 0x00000000#32))
          (mulf (select (cmpf .ole D (broadcast S8192 (Scalar.ofBits .f32 0x00000000#32)))
            (exp (minimumf D (broadcast S8192 (Scalar.ofBits .f32 0x00000000#32))))
            (addf D (broadcast S8192 (Scalar.ofBits .f32 0x3F800000#32)))) w)))))
      (subf
        (mulf (select (cmpf .ole D (broadcast S8192 (Scalar.ofBits .f32 0x00000000#32)))
          (exp (minimumf D (broadcast S8192 (Scalar.ofBits .f32 0x00000000#32))))
          (addf D (broadcast S8192 (Scalar.ofBits .f32 0x3F800000#32)))) w)
        (log1p (exp
          (mulf (select (cmpf .ole D (broadcast S8192 (Scalar.ofBits .f32 0x00000000#32)))
            (exp (minimumf D (broadcast S8192 (Scalar.ofBits .f32 0x00000000#32))))
            (addf D (broadcast S8192 (Scalar.ofBits .f32 0x3F800000#32)))) w)))))
    b

/-- The stored value is that arithmetic of the row sums and the two recast side rows. -/
theorem pay_eq (v0 v2 : Vec Ideal S8192x64 .f32) (v14 v16 : Vec Ideal S1x8192 .f32) :
    k0_pay1 v0 v2 v14 v16
      = afterSum
          (multiReduction .add [1] S8192
            (mulf (shapeCast S8192x64 v0 shapeCasts_S8192x64_S8192x64) (shapeCast S8192x64 v2 shapeCasts_S8192x64_S8192x64))
            0x00000000#32 reduces_S8192x64_S8192 (.inl rfl) rfl)
          (shapeCast S8192 v14 shapeCasts_S1x8192_S8192) (shapeCast S8192 v16 shapeCasts_S1x8192_S8192) := rfl

/-- Pointwise, the arithmetic after the row sum is the scalar row formula. -/
theorem afterSum_apply (D b w : FVec Ideal S8192 .f32) (y : S8192.Idx) :
    afterSum D b w y = Cert.RowMath.kernelRow (Ideal.ofBits .f32 0x3F800000#32) (D y) (w y) (b y) := by
  have hz : (Scalar.ofBits .f32 0x00000000#32 : Ideal .f32) = 0 := Ideal.ofBits_zero_f32
  show Cert.RowMath.kernelRowZ (Scalar.ofBits .f32 0x00000000#32 : Ideal .f32) (Ideal.ofBits .f32 0x3F800000#32) (D y) (w y) (b y) = _
  rw [hz]
  rfl

/-- The stored value at row `q` of the block. -/
theorem pay_apply (v0 v2 : Vec Ideal S8192x64 .f32) (v14 v16 : Vec Ideal S1x8192 .f32) (q : Fin 8192) :
    k0_pay1 v0 v2 v14 v16 (ix1 q)
      = Cert.RowMath.kernelRow (Ideal.ofBits .f32 0x3F800000#32) (∑ k : Fin 64, v0 (ix2 q k) * v2 (ix2 q k))
          (v16 (ix2 (0 : Fin 1) q)) (v14 (ix2 (0 : Fin 1) q)) := by
  rw [pay_eq, afterSum_apply, shapeCast_1a_a_apply, shapeCast_1a_a_apply]
  refine congrArg (fun d => Cert.RowMath.kernelRow (Ideal.ofBits .f32 0x3F800000#32) d (v16 (ix2 (0 : Fin 1) q)) (v14 (ix2 (0 : Fin 1) q))) ?_
  refine (rowSum_apply _ (.inl rfl) rfl q).trans ?_
  refine Finset.sum_congr rfl fun k _ => ?_
  rw [mulf_apply, shapeCast_self, shapeCast_self]

end Cert.KernelIdeal.RowValue

end
-- ==== Proof.KerValue.lean ====
/-
  The kernel's result array after the run, as one function of its three input arrays.

  The grid has 128 points; point `t` works on batch rows 8192·t … 8192·t + 8191: block `t` of the two [B, 64]
  operands (all 64 columns), the columns 8192·t … of the two-row side array, and block `t` of the result. What
  point `t` writes back is therefore block `t` of the array `blockwise A0 A1 A2` whose entry `r` is the row formula of
  row `r` of `A0`, `A1` and column `r` of `A2`; the 128 blocks tile the result, so the result IS that array.
-/
import proofs.«149221_j70351564308610_2_alg».proof.Proof.Gen.KernelIdeal.Value
import proofs.«149221_j70351564308610_2_alg».proof.Proof.KerPay

noncomputable section

namespace Cert.KernelIdeal.RowValue

open Cert.KernelIdeal Cert.KernelIdeal.Gen Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-- The result array from the kernel's three operands: entry `r` from row `r` of the first two and column `r` of the third. -/
def blockwise (A0 A1 : S1048576x64.Idx → Ideal .f32) (A2 : S2x1048576.Idx → Ideal .f32) : S1048576.Idx → Ideal .f32 :=
  fun i => Cert.RowMath.kernelRow (Ideal.ofBits .f32 0x3F800000#32)
    (∑ k : Fin 64, A0 (ix2 (i 0 : Fin 1048576) k) * A1 (ix2 (i 0 : Fin 1048576) k))
    (A2 (ix2 (1 : Fin 2) (i 0 : Fin 1048576))) (A2 (ix2 (0 : Fin 2) (i 0 : Fin 1048576)))

theorem zeros1 : (![0] : Fin 1 → Nat) = fun _ => 0 := funext fun a => by fin_cases a; rfl
theorem zeros2 : (![0, 0] : Fin 2 → Nat) = fun _ => 0 := funext fun a => by fin_cases a <;> rfl

/-- The index maps over the grid: the two row-blocked operands and the result move together along the batch axis and the
    side array along its second axis; the other block indices are zero; the result's block index stays below 128. -/
theorem index_facts : ∀ t : Fin cfg0.N, win0_0.index t (0 : Fin 2) = win0_3.index t (0 : Fin 1)
    ∧ win0_0.index t (1 : Fin 2) = 0
    ∧ win0_1.index t (0 : Fin 2) = win0_3.index t (0 : Fin 1)
    ∧ win0_1.index t (1 : Fin 2) = 0
    ∧ win0_2.index t (0 : Fin 2) = 0
    ∧ win0_2.index t (1 : Fin 2) = win0_3.index t (0 : Fin 1)
    ∧ win0_3.index t (0 : Fin 1) ≤ 127 :=
  (by decide +kernel : ∀ t : Fin grid0.N, _)

/-- Every one of the 128 result blocks is some point's. -/
theorem index_onto : ∀ q0 : Fin 128, ∃ t : Fin cfg0.N, win0_3.index t = ![q0.val] :=
  (by decide +kernel : ∀ q0 : Fin 128, ∃ t : Fin grid0.N, win0_3.index t = ![q0.val])

/-- The row formula of equal data is equal. -/
theorem row_congr {one d d' w w' b b' : EReal} (hd : d = d') (hw : w = w') (hb : b = b') :
    Cert.RowMath.kernelRow one d w b = Cert.RowMath.kernelRow one d' w' b' := by
  subst hd hw hb; rfl

/-- A product of equal factors is equal. -/
theorem prod_congr {a a' b b' : EReal} (h1 : a = a') (h2 : b = b') : a * b = a' * b' := by
  subst h1 h2; rfl

set_option maxHeartbeats 4000000 in
/-- What point `t` writes back is block `t` of `blockwise` of the operands as the launch finds them. -/
theorem flushed_eq (c : Dev nD) (t : Fin cfg0.N) :
    (dats m 0 c).flushed 3 t
      = ((cfg0.win 3).blk t).view.read (Elt Ideal) (blockwise (V m c main_v6) (V m c main_v13) (V m c main_v42)) := by
  rw [Cert.KernelIdeal.Value.flushed3]
  unfold out0_3
  rw [View.canon_unit_zero zeros1]
  simp only [View.ld_unit_zero (S := S8192x64) zeros2]
  obtain ⟨e0, e1, e2, e3, e4, e5, e6⟩ := index_facts t
  funext j
  obtain ⟨q, rfl⟩ : ∃ q : Fin 8192, j = ix1 q := ⟨j 0, eq_ix1 j⟩
  show k0_pay1 (iblk m c 0 t) (iblk m c 1 t) (View.ld (iblk m c 2 t) r0_1) (View.ld (iblk m c 2 t) r0_2) (ix1 q)
    = blockwise (V m c main_v6) (V m c main_v13) (V m c main_v42) (((cfg0.win 3).blk t).view.emb (ix1 q))
  rw [pay_apply (iblk m c 0 t) (iblk m c 1 t) (View.ld (iblk m c 2 t) r0_1) (View.ld (iblk m c 2 t) r0_2) q]
  have hq : q.val < 8192 := q.isLt
  have hrow : ∀ k : Fin 64, ((cfg0.win 0).blk t).view.emb (ix2 q k)
      = ix2 ((((cfg0.win 3).blk t).view.emb (ix1 q)) 0 : Fin 1048576) k := by
    intro k
    funext a; apply Fin.ext
    match a with
    | ⟨0, _⟩ => show win0_0.index t (0 : Fin 2) * 8192 + 1 * q.val = win0_3.index t (0 : Fin 1) * 8192 + 1 * q.val; omega
    | ⟨1, _⟩ => show win0_0.index t (1 : Fin 2) * 64 + 1 * k.val = k.val; omega
  have hrow' : ∀ k : Fin 64, ((cfg0.win 1).blk t).view.emb (ix2 q k)
      = ix2 ((((cfg0.win 3).blk t).view.emb (ix1 q)) 0 : Fin 1048576) k := by
    intro k
    funext a; apply Fin.ext
    match a with
    | ⟨0, _⟩ => show win0_1.index t (0 : Fin 2) * 8192 + 1 * q.val = win0_3.index t (0 : Fin 1) * 8192 + 1 * q.val; omega
    | ⟨1, _⟩ => show win0_1.index t (1 : Fin 2) * 64 + 1 * k.val = k.val; omega
  have hside1 : ((cfg0.win 2).blk t).view.emb (r0_2.emb (ix2 (0 : Fin 1) q))
      = ix2 (1 : Fin 2) ((((cfg0.win 3).blk t).view.emb (ix1 q)) 0 : Fin 1048576) := by
    funext a; apply Fin.ext
    match a with
    | ⟨0, _⟩ => show win0_2.index t (0 : Fin 2) * 2 + 1 * (1 + 1 * 0) = 1; omega
    | ⟨1, _⟩ => show win0_2.index t (1 : Fin 2) * 8192 + 1 * (0 + 1 * q.val) = win0_3.index t (0 : Fin 1) * 8192 + 1 * q.val; omega
  have hside0 : ((cfg0.win 2).blk t).view.emb (r0_1.emb (ix2 (0 : Fin 1) q))
      = ix2 (0 : Fin 2) ((((cfg0.win 3).blk t).view.emb (ix1 q)) 0 : Fin 1048576) := by
    funext a; apply Fin.ext
    match a with
    | ⟨0, _⟩ => show win0_2.index t (0 : Fin 2) * 2 + 1 * (0 + 1 * 0) = 0; omega
    | ⟨1, _⟩ => show win0_2.index t (1 : Fin 2) * 8192 + 1 * (0 + 1 * q.val) = win0_3.index t (0 : Fin 1) * 8192 + 1 * q.val; omega
  have ha : ∀ k : Fin 64, iblk m c 0 t (ix2 q k) = V m c main_v6 (ix2 ((((cfg0.win 3).blk t).view.emb (ix1 q)) 0 : Fin 1048576) k) :=
    fun k => congrArg (V m c main_v6) (hrow k)
  have ha' : ∀ k : Fin 64, iblk m c 1 t (ix2 q k) = V m c main_v13 (ix2 ((((cfg0.win 3).blk t).view.emb (ix1 q)) 0 : Fin 1048576) k) :=
    fun k => congrArg (V m c main_v13) (hrow' k)
  have hw : View.ld (iblk m c 2 t) r0_2 (ix2 (0 : Fin 1) q) = V m c main_v42 (ix2 (1 : Fin 2) ((((cfg0.win 3).blk t).view.emb (ix1 q)) 0 : Fin 1048576)) :=
    congrArg (V m c main_v42) hside1
  have hb : View.ld (iblk m c 2 t) r0_1 (ix2 (0 : Fin 1) q) = V m c main_v42 (ix2 (0 : Fin 2) ((((cfg0.win 3).blk t).view.emb (ix1 q)) 0 : Fin 1048576)) :=
    congrArg (V m c main_v42) hside0
  exact row_congr (Finset.sum_congr rfl fun k _ => prod_congr (ha k) (ha' k)) hw hb

/-- An index of the result is in point `t`'s block iff it lies in rows 8192·t … 8192·t + 8191. -/
theorem mem_block (t : Fin cfg0.N) (i : S1048576.Idx) :
    i ∈ ((cfg0.win 3).blk t).view.set ↔ ∀ a : Fin 1, win0_3.index t a * S8192.size a ≤ (i a).val
      ∧ (i a).val < win0_3.index t a * S8192.size a + S8192.size a := by
  show i ∈ ((View.whole main_v43).slice (win0_3.rect t)).set ↔ _
  rw [View.set_slice_whole, Rect.mem_set_unit]
  exact Iff.rfl

/-- The 128 blocks tile the result: row `r` is in the block of the point with block index `r / 8192`. -/
theorem covered (i : S1048576.Idx) :
    ∃ t : Fin cfg0.N, (cfg0.win 3).flush t = true ∧ i ∈ ((cfg0.win 3).blk t).view.set := by
  have hi0 : (i 0).val < 1048576 := (i 0).isLt
  obtain ⟨t, ht⟩ := index_onto ⟨(i 0).val / 8192, by omega⟩
  have q0 : win0_3.index t (0 : Fin 1) = (i 0).val / 8192 := congrFun ht 0
  refine ⟨t, flush0_3 t, ?_⟩
  rw [mem_block]
  intro a
  match a with
  | ⟨0, _⟩ =>
    show win0_3.index t (0 : Fin 1) * 8192 ≤ (i 0).val ∧ (i 0).val < win0_3.index t (0 : Fin 1) * 8192 + 8192
    omega

/-- The result array after the run. -/
theorem final (c : Dev nD) :
    (dats m 0 c).arrAt 3 cfg0.N = blockwise (V m c main_v6) (V m c main_v13) (V m c main_v42) :=
  (dats m 0 c).arrAt_eq_of_cover 3 _ (fun t _ => flushed_eq m c t) covered

end Cert.KernelIdeal.RowValue

end
-- ==== Proof.KerSide.lean ====
/-
  The side array read at a column, and the kernel's run stated over the five gathered arrays.

  Row 1 of the side array is the weight vector laid as a row; row 0 is the sum of the two bias columns, each recast
  from [B, 1] to [B] and laid as a row. With these two readings the kernel's result array — one function of its three
  operands — becomes the common form `rowsOut` of the five gathered arrays.
-/
import proofs.«149221_j70351564308610_2_alg».proof.Proof.KerHost
import proofs.«149221_j70351564308610_2_alg».proof.Proof.KerValue

noncomputable section

namespace Cert.KernelIdeal.HostSide

open Cert.KernelIdeal Cert.KernelIdeal.Gen Idealize.ShloMosaic Idealize.ShloMosaic.TcCoe Idealize.SL.Sem Idealize.ShloMosaic.ValueIdx
open scoped BigOperators

/-- A vector laid as the single row of a [1, B] array, read at column `r`. -/
theorem rowOf_apply (x : S1048576.Idx → Ideal .f32) (r : Fin 1048576) :
    broadcastInDim S1x1048576 ![1] bcast_S1048576_S1x1048576_1 x (ix2 (0 : Fin 1) r) = x (ix1 r) :=
  broadcastInDim_apply _ _ x (ix2 (0 : Fin 1) r) (ix1 r) (fun a => by match a with | ⟨0, _⟩ => rfl)

/-- A column [B, 1] recast as a vector, read at `r`. -/
theorem colVec_apply (x : S1048576x1.Idx → Ideal .f32) (r : Fin 1048576) :
    shapeCast S1048576 x shapeCasts_S1048576x1_S1048576 (ix1 r) = x (ix2 r (0 : Fin 1)) :=
  shapeCast_apply x _ (ix1 r) (ix2 r (0 : Fin 1)) (by
    rw [Shape.rowMajor_val_two, Shape.rowMajor_val_one]
    show r.val * 1 + 0 = r.val
    omega)

/-- Row 1 of the side array is the weights. -/
theorem sideRows_weight (UB IB : S1048576x1.Idx → Ideal .f32) (Pw : S1048576.Idx → Ideal .f32) (r : Fin 1048576) :
    sideRows (F := Ideal) UB IB Pw (ix2 (1 : Fin 2) r) = Pw (ix1 r) := by
  unfold sideRows
  rw [concatenate_pair_apply_right (t := S2x1048576) (s₁ := S1x1048576) (s₂ := S1x1048576) (0 : Fin 2) _ _ _ (ix2 (1 : Fin 2) r) rfl rfl (ix2 (0 : Fin 1) r)
    (fun b hb => by match b with | ⟨0, _⟩ => exact absurd rfl hb | ⟨1, _⟩ => rfl) rfl]
  exact rowOf_apply Pw r

/-- Row 0 of the side array is the sum of the two bias entries. -/
theorem sideRows_bias (UB IB : S1048576x1.Idx → Ideal .f32) (Pw : S1048576.Idx → Ideal .f32) (r : Fin 1048576) :
    sideRows (F := Ideal) UB IB Pw (ix2 (0 : Fin 2) r) = UB (ix2 r (0 : Fin 1)) + IB (ix2 r (0 : Fin 1)) := by
  unfold sideRows
  rw [concatenate_pair_apply_left (t := S2x1048576) (s₁ := S1x1048576) (s₂ := S1x1048576) (0 : Fin 2) _ _ _ (ix2 (0 : Fin 2) r) rfl (ix2 (0 : Fin 1) r)
    (fun b => by match b with | ⟨0, _⟩ => rfl | ⟨1, _⟩ => rfl)]
  rw [rowOf_apply, addf_apply, colVec_apply, colVec_apply]

variable (m : (ℓ : Loc nD τ sig) → Buf (Elt Ideal) ℓ) (ρ : Dev nD → PrngReg)

/-- The kernel's result array in the common form. -/
theorem blockwise_eq (c : Dev nD) :
    Cert.KernelIdeal.RowValue.blockwise (V m c main_v6) (V m c main_v13) (V m c main_v42)
      = Cert.RowMath.rowsOut (rowsU m c) (rowsV m c) (colUB m c) (colIB m c) (vecPw m c) := by
  rw [V_rowsU m c, V_rowsV m c, V_sideRows m c]
  funext i
  obtain ⟨r, rfl⟩ : ∃ r : Fin 1048576, i = ix1 r := ⟨i 0, eq_ix1 i⟩
  show Cert.RowMath.kernelRow _ (∑ k : Fin 64, rowsU m c (ix2 r k) * rowsV m c (ix2 r k))
      (sideRows (colUB m c) (colIB m c) (vecPw m c) (ix2 (1 : Fin 2) r))
      (sideRows (colUB m c) (colIB m c) (vecPw m c) (ix2 (0 : Fin 2) r))
    = Cert.RowMath.kernelRow _ (∑ k : Fin 64, rowsU m c (ix2 r k) * rowsV m c (ix2 r k))
      (vecPw m c (ix1 r)) (colUB m c (ix2 r (0 : Fin 1)) + colIB m c (ix2 r (0 : Fin 1)))
  rw [sideRows_weight, sideRows_bias]

/-- The kernel's run: every weakly fair execution ends with the result buffer at the common form of the gathered
    arrays, the arguments unchanged. -/
theorem run : θ_run defs (onTc (τ := τ) (main (F := Ideal))) ⟨m, fun _ => 0, ρ⟩ fun r => ∀ c : Dev nD,
      r.2.mem ((c : Thread nD τ).loc main_v43)
        = Cert.RowMath.rowsOut (rowsU m c) (rowsV m c) (colUB m c) (colIB m c) (vecPw m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((Cert.KernelIdeal.RowValue.final m c).trans (blockwise_eq m c)), (h c).2⟩)
    (Cert.KernelIdeal.Value.run_blocks m ρ)

end Cert.KernelIdeal.HostSide

end
-- ==== Proof.RefRun.lean ====
/-
  The reference program's run, read back.

  The reference's entry function is straight-line: every row of the batch is handled by whole-array host operations.
  Listed below are its 81 operations in program order, the two outlined functions it calls written out at their call
  sites over the calls' own buffers (the `where` is one select; the log-sigmoid is a negation, the fourteen operations
  of softplus, and a negation). Running the list leaves in the result buffer a composed term of the seven arguments,
  which is stated here through five gathered arrays:

    U  = rows of the user table picked by the (wrapped) user indices        [B, 64]
    V  = rows of the item table picked by the (wrapped) item indices        [B, 64]
    UB = user bias entries, IB = item bias entries                          [B, 1]
    Pw = item popularity to the power one half                              [B]

  and a tail `refTail U V UB IB Pw` that holds all the arithmetic: the row dot product kept as a column, the
  piecewise transform, the weighting, minus softplus of the negation, the two bias additions, and the final
  recast of the column [B, 1] as a vector [B].
-/
import proofs.«149221_j70351564308610_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The operations of the first window of the entry function (75 of them, the calls written out). -/
abbrev ops_part0 : List (HloOp τ sig (Elt F)) :=
  [ nullary main_c (constantI S_ 32 0#32),
    unary main_c main_v0 (broadcastInDim S1048576 ![] bcast_S_S1048576),
    binary main_arg0 main_v0 main_v1 (cmpi .slt),
    nullary main_c_0 (constantI S_ 32 1000000#32),
    unary main_c_0 main_v2 (broadcastInDim S1048576 ![] bcast_S_S1048576),
    binary main_arg0 main_v2 main_v3 addi,
    ternary main_v1 main_v3 main_arg0 main_v4 select,
    unary main_v4 main_v5 (broadcastInDim S1048576x1 ![0] bcast_S1048576_S1048576x1_0),
    binary main_arg2 main_v5 main_v6 (fun x i => Host.gather gather_S1000000x64_S1048576x1_S1048576x64_1_0_n_n_0_1_164 x i),
    nullary main_c_1 (constantI S_ 32 0#32),
    unary main_c_1 main_v7 (broadcastInDim S1048576 ![] bcast_S_S1048576),
    binary main_arg1 main_v7 main_v8 (cmpi .slt),
    nullary main_c_2 (constantI S_ 32 100000#32),
    unary main_c_2 main_v9 (broadcastInDim S1048576 ![] bcast_S_S1048576),
    binary main_arg1 main_v9 main_v10 addi,
    ternary main_v8 main_v10 main_arg1 main_v11 select,
    unary main_v11 main_v12 (broadcastInDim S1048576x1 ![0] bcast_S1048576_S1048576x1_0),
    binary main_arg3 main_v12 main_v13 (fun x i => Host.gather gather_S100000x64_S1048576x1_S1048576x64_1_0_n_n_0_1_164 x i),
    binary main_v6 main_v13 main_v14 mulf,
    nullary main_cst (constant S_ .f32 0x00000000#32),
    binary main_v14 main_cst main_v15 (fun x v => Host.reduceAdd x v reducesTo_S1048576x64_S1048576_d1 h_S_),
    unary main_v15 main_v16 (broadcastInDim S1048576x1 ![0] bcast_S1048576_S1048576x1_0),
    nullary main_cst_3 (constant S_ .f32 0x00000000#32),
    unary main_cst_3 main_v17 (broadcastInDim S1048576x1 ![] bcast_S_S1048576x1),
    binary main_v16 main_v17 main_v18 (cmpf .ole),
    unary main_v16 main_v19 Host.exp,
    nullary main_cst_4 (constant S_ .f32 0x3F800000#32),
    unary main_cst_4 main_v20 (broadcastInDim S1048576x1 ![] bcast_S_S1048576x1),
    binary main_v16 main_v20 main_v21 addf,
    TRef.ternary (.of main_v18) (.of main_v19) (.of main_v21) main_call0.v0 select,
    nullary main_c_5 (constantI S_ 32 0#32),
    unary main_c_5 main_v23 (broadcastInDim S1048576 ![] bcast_S_S1048576),
    binary main_arg1 main_v23 main_v24 (cmpi .slt),
    nullary main_c_6 (constantI S_ 32 100000#32),
    unary main_c_6 main_v25 (broadcastInDim S1048576 ![] bcast_S_S1048576),
    binary main_arg1 main_v25 main_v26 addi,
    ternary main_v24 main_v26 main_arg1 main_v27 select,
    unary main_v27 main_v28 (broadcastInDim S1048576x1 ![0] bcast_S1048576_S1048576x1_0),
    binary main_arg6 main_v28 main_v29 (fun x i => Host.gather gather_S100000_S1048576x1_S1048576_n_0_n_n_0_1_1 x i),
    nullary main_cst_7 (constant S_ .f32 0x3F000000#32),
    unary main_cst_7 main_v30 (broadcastInDim S1048576 ![] bcast_S_S1048576),
    binary main_v29 main_v30 main_v31 Host.powf,
    unary main_v31 main_v32 (broadcastInDim S1048576x1 ![0] bcast_S1048576_S1048576x1_0),
    binary main_v22 main_v32 main_v33 mulf,
    TRef.unary (.of main_v33) main_call1.v0 Host.negf,
    TRef.nullary main_call1.call0.cst (constant S_ .f32 0x00000000#32),
    TRef.unary main_call1.call0.cst main_call1.call0.v0 (broadcastInDim S1048576x1 ![] bcast_S_S1048576x1),
    TRef.binary main_call1.v0 main_call1.call0.v0 main_call1.call0.v1 maximumf,
    TRef.unary main_call1.call0.cst main_call1.call0.v2 (broadcastInDim S1048576x1 ![] bcast_S_S1048576x1),
    TRef.binary main_call1.v0 main_call1.call0.v2 main_call1.call0.v3 subf,
    TRef.binary main_call1.call0.v3 main_call1.call0.v3 main_call1.call0.v4 (cmpf .une),
    TRef.unary main_call1.call0.cst main_call1.call0.v5 (broadcastInDim S1048576x1 ![] bcast_S_S1048576x1),
    TRef.binary main_call1.v0 main_call1.call0.v5 main_call1.call0.v6 addf,
    TRef.unary main_call1.call0.v3 main_call1.call0.v7 Host.absf,
    TRef.unary main_call1.call0.v7 main_call1.call0.v8 Host.negf,
    TRef.unary main_call1.call0.v8 main_call1.call0.v9 Host.exp,
    TRef.unary main_call1.call0.v9 main_call1.call0.v10 Host.log1p,
    TRef.binary main_call1.call0.v1 main_call1.call0.v10 main_call1.call0.v11 addf,
    TRef.ternary main_call1.call0.v4 main_call1.call0.v6 main_call1.call0.v11 main_call1.call0.v12 select,
    TRef.unary main_call1.call0.v12 main_call1.v2 Host.negf,
    nullary main_c_8 (constantI S_ 32 0#32),
    unary main_c_8 main_v35 (broadcastInDim S1048576 ![] bcast_S_S1048576),
    binary main_arg0 main_v35 main_v36 (cmpi .slt),
    nullary main_c_9 (constantI S_ 32 1000000#32),
    unary main_c_9 main_v37 (broadcastInDim S1048576 ![] bcast_S_S1048576),
    binary main_arg0 main_v37 main_v38 addi,
    ternary main_v36 main_v38 main_arg0 main_v39 select,
    unary main_v39 main_v40 (broadcastInDim S1048576x1 ![0] bcast_S1048576_S1048576x1_0),
    binary main_arg4 main_v40 main_v41 (fun x i => Host.gather gather_S1000000x1_S1048576x1_S1048576x1_1_0_n_n_0_1_11 x i),
    binary main_v34 main_v41 main_v42 addf,
    nullary main_c_10 (constantI S_ 32 0#32),
    unary main_c_10 main_v43 (broadcastInDim S1048576 ![] bcast_S_S1048576),
    binary main_arg1 main_v43 main_v44 (cmpi .slt),
    nullary main_c_11 (constantI S_ 32 100000#32),
    unary main_c_11 main_v45 (broadcastInDim S1048576 ![] bcast_S_S1048576) ]

/-- The operations of the second window (the last six). -/
abbrev ops_part1 : List (HloOp τ sig (Elt F)) :=
  [ binary main_arg1 main_v45 main_v46 addi,
    ternary main_v44 main_v46 main_arg1 main_v47 select,
    unary main_v47 main_v48 (broadcastInDim S1048576x1 ![0] bcast_S1048576_S1048576x1_0),
    binary main_arg5 main_v48 main_v49 (fun x i => Host.gather gather_S100000x1_S1048576x1_S1048576x1_1_0_n_n_0_1_11 x i),
    binary main_v42 main_v49 main_v50 addf,
    reshape main_v50 main_v51 rfl shapeCasts_S1048576x1_S1048576 ]

/-- All 81 operations, in order. -/
abbrev ops : List (HloOp τ sig (Elt F)) := ops_part0 ++ ops_part1

set_option maxRecDepth 8192 in
set_option maxHeartbeats 4000000 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., nullary_bufs_sub .., unary_bufs_sub .., binary_bufs_sub .., unary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub ..⟩
set_option maxRecDepth 8192 in
theorem ops_part1_sub : (ops_part1 : List (HloOp τ sig (Elt F))).Forall fun op => op.bufs ⊆ tcRefs τ sig :=
  ⟨binary_bufs_sub .., ternary_bufs_sub .., unary_bufs_sub .., binary_bufs_sub .., binary_bufs_sub .., reshape_bufs_sub ..⟩
theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops_part0_sub op h, List.forall_iff_forall_mem.mp ops_part1_sub op h]

/-- Every buffer after the run holds the fold of the operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.RefValue.lean ====
/-
  What the reference's result buffer holds after the run, as a term of the seven arguments.

  The term is stated through five gathered arrays (rows of the two embedding tables, the two bias columns and the
  popularity weights, each picked by the batch's wrapped indices) and one tail function `refTail` of those five that
  holds all the arithmetic. The proof is a computation: the fold of the 81 operations over the launch contents is
  unrolled, each operation's result read at its own buffer.
-/
import proofs.«149221_j70351564308610_2_alg».proof.Proof.RefRun

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- A batch of indices, a negative one wrapped around by the table's extent `n`, as a column [B, 1]. -/
def wrapCol (n : BitVec 32) (a : (⟨S1048576, .i32⟩ : BufTy).Contents (Elt F)) : (⟨S1048576x1, .i32⟩ : BufTy).Contents (Elt F) :=
  broadcastInDim S1048576x1 ![0] bcast_S1048576_S1048576x1_0
    (select (cmpi .slt a (broadcastInDim S1048576 ![] bcast_S_S1048576 (constantI S_ 32 0#32)))
      (addi a (broadcastInDim S1048576 ![] bcast_S_S1048576 (constantI S_ 32 n))) a)

/-- The column of zeros. -/
def zeroCol : (⟨S1048576x1, .f32⟩ : BufTy).Contents (Elt F) :=
  broadcastInDim S1048576x1 ![] bcast_S_S1048576x1 (constant S_ .f32 0x00000000#32)

/-- The row dot products of two [B, 64] arrays, as a column. -/
def dotCol (U V : (⟨S1048576x64, .f32⟩ : BufTy).Contents (Elt F)) : (⟨S1048576x1, .f32⟩ : BufTy).Contents (Elt F) :=
  broadcastInDim S1048576x1 ![0] bcast_S1048576_S1048576x1_0
    (Host.reduceAdd (mulf U V) (constant S_ .f32 0x00000000#32) reducesTo_S1048576x64_S1048576_d1 h_S_)

/-- The piecewise transform: `exp d` where `d ≤ 0`, `d + 1` elsewhere. -/
def pieceCol (D : (⟨S1048576x1, .f32⟩ : BufTy).Contents (Elt F)) : (⟨S1048576x1, .f32⟩ : BufTy).Contents (Elt F) :=
  select (cmpf .ole D zeroCol) (Host.exp D)
    (addf D (broadcastInDim S1048576x1 ![] bcast_S_S1048576x1 (constant S_ .f32 0x3F800000#32)))

/-- Softplus as the reference computes it: `max y 0 + log1p (exp (-|y - 0|))`, under a guard `y - 0 ≠ y - 0`. -/
def softplusCol (Y : (⟨S1048576x1, .f32⟩ : BufTy).Contents (Elt F)) : (⟨S1048576x1, .f32⟩ : BufTy).Contents (Elt F) :=
  select (cmpf .une (subf Y zeroCol) (subf Y zeroCol)) (addf Y zeroCol)
    (addf (maximumf Y zeroCol) (Host.log1p (Host.exp (Host.negf (Host.absf (subf Y zeroCol))))))

/-- All the arithmetic of the reference, from the five gathered arrays. -/
def refTail (U V : (⟨S1048576x64, .f32⟩ : BufTy).Contents (Elt F)) (UB IB : (⟨S1048576x1, .f32⟩ : BufTy).Contents (Elt F)) (Pw : (⟨S1048576, .f32⟩ : BufTy).Contents (Elt F)) :
    (⟨S1048576, .f32⟩ : BufTy).Contents (Elt F) :=
  shapeCast S1048576
    (addf (addf (Host.negf (softplusCol (Host.negf (mulf (pieceCol (dotCol U V))
      (broadcastInDim S1048576x1 ![0] bcast_S1048576_S1048576x1_0 Pw))))) UB) IB)
    shapeCasts_S1048576x1_S1048576

/-- The reference's result as a term of its seven arguments. -/
def refOut (a0 a1 : (⟨S1048576, .i32⟩ : BufTy).Contents (Elt F)) (a2 : (⟨S1000000x64, .f32⟩ : BufTy).Contents (Elt F)) (a3 : (⟨S100000x64, .f32⟩ : BufTy).Contents (Elt F))
    (a4 : (⟨S1000000x1, .f32⟩ : BufTy).Contents (Elt F)) (a5 : (⟨S100000x1, .f32⟩ : BufTy).Contents (Elt F)) (a6 : (⟨S100000, .f32⟩ : BufTy).Contents (Elt F)) : (⟨S1048576, .f32⟩ : BufTy).Contents (Elt F) :=
  refTail
    (Host.gather gather_S1000000x64_S1048576x1_S1048576x64_1_0_n_n_0_1_164 a2 (wrapCol 1000000#32 a0))
    (Host.gather gather_S100000x64_S1048576x1_S1048576x64_1_0_n_n_0_1_164 a3 (wrapCol 100000#32 a1))
    (Host.gather gather_S1000000x1_S1048576x1_S1048576x1_1_0_n_n_0_1_11 a4 (wrapCol 1000000#32 a0))
    (Host.gather gather_S100000x1_S1048576x1_S1048576x1_1_0_n_n_0_1_11 a5 (wrapCol 100000#32 a1))
    (Host.powf (Host.gather gather_S100000_S1048576x1_S1048576_n_0_n_n_0_1_1 a6 (wrapCol 100000#32 a1))
      (broadcastInDim S1048576 ![] bcast_S_S1048576 (constant S_ .f32 0x3F000000#32)))

attribute [local irreducible] Host.gather Host.reduceAdd Host.powf in
set_option maxRecDepth 8192 in
set_option maxHeartbeats 4000000 in
/-- The fold of the operations at the result buffer is that term. -/
theorem out_eq (V0 : Valuation τ sig (Elt F)) :
    after ops V0 (Proc.devRef .tc main_v51)
      = refOut (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5))
          (V0 (Proc.devRef .tc main_arg6)) := by
  simp only [ops, ops_part0, ops_part1, List.cons_append, List.nil_append]
  after_results_simp
  rfl

end Cert.ReferenceIdeal.HandRun

end
-- ==== Proof.RefKept.lean ====
/-
  The reference never writes its argument buffers: after the 81 operations each of the seven still holds its
  launch contents (no operation's result buffer is an argument).
-/
import proofs.«149221_j70351564308610_2_alg».proof.Proof.RefRun

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem kept_arg0 (V0 : Valuation τ sig (Elt F)) :
    after ops V0 (Proc.devRef .tc main_arg0) = V0 (Proc.devRef .tc main_arg0) := by
  simp only [ops, ops_part0, ops_part1, List.cons_append, List.nil_append]
  after_results_simp

set_option maxRecDepth 8192 in
set_option maxHeartbeats 4000000 in
theorem kept_arg1 (V0 : Valuation τ sig (Elt F)) :
    after ops V0 (Proc.devRef .tc main_arg1) = V0 (Proc.devRef .tc main_arg1) := by
  simp only [ops, ops_part0, ops_part1, List.cons_append, List.nil_append]
  after_results_simp

set_option maxRecDepth 8192 in
set_option maxHeartbeats 4000000 in
theorem kept_arg2 (V0 : Valuation τ sig (Elt F)) :
    after ops V0 (Proc.devRef .tc main_arg2) = V0 (Proc.devRef .tc main_arg2) := by
  simp only [ops, ops_part0, ops_part1, List.cons_append, List.nil_append]
  after_results_simp

set_option maxRecDepth 8192 in
set_option maxHeartbeats 4000000 in
theorem kept_arg3 (V0 : Valuation τ sig (Elt F)) :
    after ops V0 (Proc.devRef .tc main_arg3) = V0 (Proc.devRef .tc main_arg3) := by
  simp only [ops, ops_part0, ops_part1, List.cons_append, List.nil_append]
  after_results_simp

set_option maxRecDepth 8192 in
set_option maxHeartbeats 4000000 in
theorem kept_arg4 (V0 : Valuation τ sig (Elt F)) :
    after ops V0 (Proc.devRef .tc main_arg4) = V0 (Proc.devRef .tc main_arg4) := by
  simp only [ops, ops_part0, ops_part1, List.cons_append, List.nil_append]
  after_results_simp

set_option maxRecDepth 8192 in
set_option maxHeartbeats 4000000 in
theorem kept_arg5 (V0 : Valuation τ sig (Elt F)) :
    after ops V0 (Proc.devRef .tc main_arg5) = V0 (Proc.devRef .tc main_arg5) := by
  simp only [ops, ops_part0, ops_part1, List.cons_append, List.nil_append]
  after_results_simp

set_option maxRecDepth 8192 in
set_option maxHeartbeats 4000000 in
theorem kept_arg6 (V0 : Valuation τ sig (Elt F)) :
    after ops V0 (Proc.devRef .tc main_arg6) = V0 (Proc.devRef .tc main_arg6) := by
  simp only [ops, ops_part0, ops_part1, List.cons_append, List.nil_append]
  after_results_simp

end Cert.ReferenceIdeal.HandRun

end
-- ==== Proof.RefRead.lean ====
/-
  The reference's arithmetic read at one batch row.

  Every operation of the tail is pointwise except three kinds of re-layout — a scalar broadcast to a column, a vector
  [B] broadcast to the column [B, 1], the column recast as a vector — and the row sum over the 64 embedding
  coordinates. Reading each at the row `r` gives the scalar formula `refRow` of the row's dot product, weight and
  two bias entries (the host sum starts from its initial value, the zero).
-/
import proofs.«149221_j70351564308610_2_alg».proof.Proof.RefValue
import proofs.«149221_j70351564308610_2_alg».proof.Proof.RowMath
import Idealize.ShloMosaic.Lib.ValueIdx
import Idealize.ShloMosaic.Lib.Pipeline.Value
import Idealize.ShloMosaic.PureOps.Ideal.Laws

noncomputable section

namespace Cert.ReferenceIdeal.HandRun

open Cert.ReferenceIdeal Cert.ReferenceIdeal.Gen Idealize.ShloMosaic Idealize.ShloMosaic.TcCoe Idealize.ShloMosaic.ValueIdx
open scoped BigOperators

/-- A scalar broadcast to the column, read anywhere, is the scalar. -/
theorem scalarCol_apply (x : S_.Idx → Ideal .f32) (j : S1048576x1.Idx) :
    broadcastInDim S1048576x1 ![] bcast_S_S1048576x1 x j = x ix0 :=
  broadcastInDim_apply _ _ x j ix0 (fun a => a.elim0)

/-- The column of zeros holds zero. -/
theorem zeroCol_apply (j : S1048576x1.Idx) : zeroCol (F := Ideal) j = 0 := by
  unfold zeroCol
  rw [scalarCol_apply, constant_apply, Ideal.ofBits_zero_f32]

/-- A vector broadcast to a column, read at row `r`, is the vector's entry `r`. -/
theorem vecCol_apply (x : S1048576.Idx → Ideal .f32) (r : Fin 1048576) :
    broadcastInDim S1048576x1 ![0] bcast_S1048576_S1048576x1_0 x (ix2 r 0) = x (ix1 r) :=
  broadcastInDim_apply _ _ x (ix2 r 0) (ix1 r) (fun a => by match a with | ⟨0, _⟩ => rfl)

/-- The column recast as a vector, read at `r`, is the column's entry at row `r`. -/
theorem colVec_apply (x : S1048576x1.Idx → Ideal .f32) (r : Fin 1048576) :
    shapeCast S1048576 x shapeCasts_S1048576x1_S1048576 (ix1 r) = x (ix2 r 0) :=
  shapeCast_apply x _ (ix1 r) (ix2 r 0) (by
    rw [Shape.rowMajor_val_two, Shape.rowMajor_val_one]
    show r.val * 1 + 0 = r.val
    omega)

/-- The row dot products as a column: at row `r` the host sum's initial zero plus the sum over the 64 coordinates. -/
theorem dotCol_apply (U V : S1048576x64.Idx → Ideal .f32) (r : Fin 1048576) :
    dotCol (F := Ideal) U V (ix2 r 0) = ∑ k : Fin 64, U (ix2 r k) * V (ix2 r k) := by
  unfold dotCol
  rw [vecCol_apply]
  show Ideal.hostReduceAdd _ _ _ (ix1 r) = _
  have hred : S1048576x64.Reduces [1] S1048576 := by decide
  rw [Ideal.hostReduceAdd_single _ hred]
  have hz : constant (F := Ideal) S_ .f32 0x00000000#32 (Shape.Idx.first h_S_) = 0 := by
    rw [constant_apply, Ideal.ofBits_zero_f32]
  rw [hz, zero_add]
  refine Finset.sum_congr rfl fun k _ => ?_
  have hl : hred.lift (ix1 r) k = ix2 r k := by
    funext a
    match a with
    | ⟨0, _⟩ => rfl
    | ⟨1, _⟩ => rfl
  rw [hl]
  rfl

/-- The piecewise transform at an index. -/
theorem pieceCol_apply (D : S1048576x1.Idx → Ideal .f32) (j : S1048576x1.Idx) :
    pieceCol (F := Ideal) D j
      = Scalar.select (Ideal.cmp .ole (D j) 0) (Ideal.exp (D j)) (D j + Ideal.ofBits .f32 0x3F800000#32) := by
  unfold pieceCol
  rw [select_apply, cmpf_apply, zeroCol_apply, addf_apply, scalarCol_apply, constant_apply]
  rfl

/-- The reference's softplus at an index. -/
theorem softplusCol_apply (Y : S1048576x1.Idx → Ideal .f32) (j : S1048576x1.Idx) :
    softplusCol (F := Ideal) Y j = Cert.RowMath.refSoftplus (Y j) := by
  unfold softplusCol
  rw [select_apply, cmpf_apply, addf_apply, addf_apply, maximumf_apply]
  show Scalar.select (Ideal.cmp .une (subf Y (zeroCol (F := Ideal)) j) (subf Y (zeroCol (F := Ideal)) j)) (Y j + zeroCol (F := Ideal) j)
      (max (Y j) (zeroCol (F := Ideal) j)
        + Ideal.log1p (Ideal.exp (-(max (subf Y (zeroCol (F := Ideal)) j) (-(subf Y (zeroCol (F := Ideal)) j)))))) = _
  rw [subf_apply, zeroCol_apply]
  rfl

/-- A negated column at an index. -/
theorem negCol_apply (X : S1048576x1.Idx → Ideal .f32) (j : S1048576x1.Idx) : Host.negf (F := Ideal) X j = -(X j) := rfl

/-- The reference's tail at row `r`. -/
theorem refTail_apply (U V : S1048576x64.Idx → Ideal .f32) (UB IB : S1048576x1.Idx → Ideal .f32)
    (Pw : S1048576.Idx → Ideal .f32) (r : Fin 1048576) :
    refTail (F := Ideal) U V UB IB Pw (ix1 r)
      = Cert.RowMath.refRow (Ideal.ofBits .f32 0x3F800000#32) (∑ k : Fin 64, U (ix2 r k) * V (ix2 r k))
          (Pw (ix1 r)) (UB (ix2 r 0)) (IB (ix2 r 0)) := by
  unfold refTail
  rw [colVec_apply, addf_apply, addf_apply, negCol_apply, softplusCol_apply, negCol_apply, mulf_apply, pieceCol_apply,
    dotCol_apply, vecCol_apply]
  rfl

end Cert.ReferenceIdeal.HandRun

end
-- ==== Proof.RefPost.lean ====
/-
  The reference's run, and its result in the common form.

  Every weakly fair execution of the reference ends with its result buffer at `refOut` of the arguments, the arguments
  unchanged. Read row by row, `refOut` is the reference's row formula of the five gathered arrays; the scalar law
  `kernelRow_eq_refRow` turns it into the common form `rowsOut`.
-/
import proofs.«149221_j70351564308610_2_alg».proof.Proof.RefValue
import proofs.«149221_j70351564308610_2_alg».proof.Proof.RefKept
import proofs.«149221_j70351564308610_2_alg».proof.Proof.RefRead

noncomputable section

namespace Cert.ReferenceIdeal.HandRun

open Cert.ReferenceIdeal Cert.ReferenceIdeal.Gen Idealize.ShloMosaic Idealize.ShloMosaic.TcCoe Idealize.SL.Sem Idealize.ShloMosaic.StableHlo Idealize.ShloMosaic.ValueIdx
open scoped BigOperators

/-- The reference's run. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51)
        = refOut (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v51).trans (out_eq (launchContents m c)),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c)),
      (h c main_arg6).trans (kept_arg6 (launchContents m c))⟩)
    (run_fold m ρ)

/-- The reference's result in the common form of the five gathered arrays. -/
theorem refTail_eq (U V : S1048576x64.Idx → Ideal .f32) (UB IB : S1048576x1.Idx → Ideal .f32) (Pw : S1048576.Idx → Ideal .f32) :
    refTail (F := Ideal) U V UB IB Pw = Cert.RowMath.rowsOut U V UB IB Pw := by
  funext i
  obtain ⟨r, rfl⟩ : ∃ r : Fin 1048576, i = ix1 r := ⟨i 0, eq_ix1 i⟩
  rw [refTail_apply]
  exact (Cert.RowMath.kernelRow_eq_refRow _ _ _ _ _).symm

end Cert.ReferenceIdeal.HandRun

end
-- ==== Proof.lean ====
/-
  The kernel and its reference compute the same array, at the extended reals.

  Both programs gather, for each of the B = 1048576 batch rows, a user row and an item row of 64 embedding coordinates,
  a user bias, an item bias and an item popularity (a negative index wrapped around by the table's extent, the same way
  on both sides), and both return, per row,

      log σ( p(⟨u, v⟩) · pop^(1/2) ) + ub + ib,      p(d) = exp d for d ≤ 0, d + 1 otherwise.

  The kernel's entry function does the gathers, precombines the two biases and stacks them with the weights into a
  two-row side array, and hands 128 blocks of 8192 rows to the kernel body; the reference does everything with
  whole-array operations, keeping the row dot product as a column [B, 1]. Each side's result is brought to ONE form,
  `RowMath.rowsOut` of the five gathered arrays (module RowMath holds the scalar laws that join the two spellings; none of
  them needs finiteness, so the precondition is never opened):
    * kernel: the block the body stores (KerPay), the blocks tiling the result (KerValue), the operands as the host
      operations leave them (KerHost) and the side array read at a column (KerSide);
    * reference: its operations listed and run (RefRun), the result buffer's term (RefValue, RefKept), that term read at
      a row (RefRead), and the run with the common form (RefPost).
  The three frames: the kernel's two are the generated frame certificates; the reference's is its run with the result
  dropped. The idealization rewrote nothing, so `preserves` is trivial.
-/
import proofs.«149221_j70351564308610_2_alg».proof.Defs
import proofs.«149221_j70351564308610_2_alg».proof.Proof.Gen.Kernel
import proofs.«149221_j70351564308610_2_alg».proof.Proof.Gen.Kernel.Skeleton
import proofs.«149221_j70351564308610_2_alg».proof.Proof.Gen.Kernel.Launch
import proofs.«149221_j70351564308610_2_alg».proof.Proof.Gen.Kernel.Points
import proofs.«149221_j70351564308610_2_alg».proof.Proof.Gen.Kernel.Frame
import proofs.«149221_j70351564308610_2_alg».proof.Proof.Gen.KernelIdeal
import proofs.«149221_j70351564308610_2_alg».proof.Proof.Gen.KernelIdeal.Skeleton
import proofs.«149221_j70351564308610_2_alg».proof.Proof.Gen.KernelIdeal.Launch
import proofs.«149221_j70351564308610_2_alg».proof.Proof.Gen.KernelIdeal.Points
import proofs.«149221_j70351564308610_2_alg».proof.Proof.Gen.KernelIdeal.Frame
import proofs.«149221_j70351564308610_2_alg».proof.Proof.Gen.KernelIdeal.Value
import proofs.«149221_j70351564308610_2_alg».proof.Proof.Gen.ReferenceIdeal
import proofs.«149221_j70351564308610_2_alg».proof.Proof.Gen.Pre_finite_inputs
import proofs.«149221_j70351564308610_2_alg».proof.Proof.KerSide
import proofs.«149221_j70351564308610_2_alg».proof.Proof.RefPost
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.HandRun.run (F := Ideal) m ρ)

theorem preserves : Cert.preserves_Kernel_KernelIdeal := trivial

/-- The reference's result term, over the kernel's argument arrays, is the common form of the kernel's five gathered
    arrays: the two programs spell the same gathers. -/
theorem reference_result (m : (ℓ : Loc Cert.KernelIdeal.nD Cert.KernelIdeal.τ Cert.KernelIdeal.sig) → Buf (Elt Ideal) ℓ)
    (c : Dev Cert.KernelIdeal.nD) :
    Cert.ReferenceIdeal.HandRun.refOut (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
      = Cert.RowMath.rowsOut (Cert.KernelIdeal.HostSide.rowsU m c) (Cert.KernelIdeal.HostSide.rowsV m c)
          (Cert.KernelIdeal.HostSide.colUB m c) (Cert.KernelIdeal.HostSide.colIB m c) (Cert.KernelIdeal.HostSide.vecPw m c) := by
  unfold Cert.ReferenceIdeal.HandRun.refOut
  rw [Cert.ReferenceIdeal.HandRun.refTail_eq]
  rfl

theorem algebraic : Cert.algebraic_KernelIdeal_ReferenceIdeal := by
  intro m ρ m' ρ' _ hagree
  refine ⟨fun c => Cert.RowMath.rowsOut (Cert.KernelIdeal.HostSide.rowsU m c) (Cert.KernelIdeal.HostSide.rowsV m c)
    (Cert.KernelIdeal.HostSide.colUB m c) (Cert.KernelIdeal.HostSide.colIB m c) (Cert.KernelIdeal.HostSide.vecPw m c),
    Cert.KernelIdeal.HostSide.run m ρ, ?_⟩
  refine (θ_run Cert.ReferenceIdeal.defs _ _).mono (fun _ h c => ⟨(h c).1.trans ?_, (h c).2⟩)
    (Cert.ReferenceIdeal.HandRun.run (F := Ideal) m' ρ')
  obtain ⟨e0, e1, e2, e3, e4, e5, e6⟩ := hagree c
  rw [e0, e1, e2, e3, e4, e5, e6]
  exact reference_result m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
